-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S1024x512 .f32) (main_arg1 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S1024x512 : Shape := ⟨2, ![1024, 512]⟩
abbrev S100000x512 : Shape := ⟨2, ![100000, 512]⟩
abbrev S1024x100000 : Shape := ⟨2, ![1024, 100000]⟩
abbrev S2048x512 : Shape := ⟨2, ![2048, 512]⟩
abbrev S1024x2048 : Shape := ⟨2, ![1024, 2048]⟩

abbrev nBuf : Space → Nat
  | .hbm => 6
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S1024x512, .bf16⟩
  | .hbm, ⟨3, _⟩ => ⟨S100000x512, .bf16⟩
  | .hbm, ⟨4, _⟩ => ⟨S1024x100000, .bf16⟩
  | .hbm, ⟨5, _⟩ => ⟨S1024x100000, .f32⟩
  | .local _ .vmem, ⟨0, _⟩ => ⟨S1024x512, .bf16⟩
  | .local _ .vmem, ⟨1, _⟩ => ⟨S2048x512, .bf16⟩
  | .local _ .vmem, ⟨2, _⟩ => ⟨S2048x512, .bf16⟩
  | .local _ .vmem, ⟨3, _⟩ => ⟨S1024x2048, .bf16⟩
  | .local _ .vmem, ⟨4, _⟩ => ⟨S1024x2048, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S100000x512.size a
  hwx0_1 : ∀ i : grid0.Coords, EltTy.bits .bf16 = 32 ∨ (Rect.unit (s := S100000x512) (fun a => cc0_transform_1 i a * S2048x512.size a) (fun a => (Pipeline.Clip.of (cc0_transform_1 i a) (S2048x512.size a) (S100000x512.size a)).extent (S2048x512.size a)) fun a => Pipeline.Clip.inb (Pipeline.Clip.ok_of (hstart0_1 i a))).WholeWords (EltTy.packing .bf16)
  hwxs0_1 : ∀ i : grid0.Coords, EltTy.bits .bf16 = 32 ∨ (Rect.unit (s := S2048x512) (fun _ => 0) (fun a => (Pipeline.Clip.of (cc0_transform_1 i a) (S2048x512.size a) (S100000x512.size a)).extent (S2048x512.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x2048.size a < S1024x100000.size a
  hwx0_2 : ∀ i : grid0.Coords, EltTy.bits .bf16 = 32 ∨ (Rect.unit (s := S1024x100000) (fun a => cc0_transform_2 i a * S1024x2048.size a) (fun a => (Pipeline.Clip.of (cc0_transform_2 i a) (S1024x2048.size a) (S1024x100000.size a)).extent (S1024x2048.size a)) fun a => Pipeline.Clip.inb (Pipeline.Clip.ok_of (hstart0_2 i a))).WholeWords (EltTy.packing .bf16)
  hwxs0_2 : ∀ i : grid0.Coords, EltTy.bits .bf16 = 32 ∨ (Rect.unit (s := S1024x2048) (fun _ => 0) (fun a => (Pipeline.Clip.of (cc0_transform_2 i a) (S1024x2048.size a) (S1024x100000.size a)).extent (S1024x2048.size a)) fun a => (Nat.zero_add _).trans_le (Pipeline.Clip.extent_le (Pipeline.Clip.ok_of (hstart0_2 i a)))).WholeWords (EltTy.packing .bf16)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v1) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S1024x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S100000x512 : Shape := ⟨2, ![100000, 512]⟩
abbrev S512x100000 : Shape := ⟨2, ![512, 100000]⟩
abbrev S1024x100000 : Shape := ⟨2, ![1024, 100000]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S512x100000, .f32⟩
  | .hbm, ⟨3, _⟩ => ⟨S1024x100000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S100000x512_S512x100000_1_0 : S100000x512.Transposes [1, 0] S512x100000
  dot_S1024x512_S512x100000_S1024x100000_1_0_0_1_n_n_wf : DotDims.WF S1024x512 S512x100000 S1024x100000 [1] [0] [0] [1] [] []

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.TileWord.lean ====
/-
  One grid point of the class-tiled product, as a triple that holds at every float instance.

  The body reads its three staging buffers whole (offsets zero, the buffers' own extents) and stores one
  value, whole, into the third: the product of the first buffer (1024 × 512) with the second (2048 × 512),
  contracted over their second axes, into a zero accumulator, narrowed to the buffer's format. So if the
  first two buffers hold `x0` and `x1`, the third ends holding that one pure term of `x0` and `x1`
  whatever it held before, and the first two are untouched.
-/
import proofs.«104114_g50852412784741_cont_8to1_c_813_21_alg».proof.Proof.Gen.Kernel.Frame
import proofs.«104114_g50852412784741_cont_8to1_c_813_21_alg».proof.Proof.Gen.Kernel.Skeleton
import Idealize.ShloMosaic.Lib.Pipeline.Value

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen
open Facts₀ Facts

variable {F : FTy → Type} [FloatOps F]

local notation "𝕄" => MT nD τ sig Unit (Elt F) ℕ (UR sig nD τ) ℕ

/-- The accesses' offsets are the origin. -/
theorem origin : (![0, 0] : Fin 2 → Nat) = fun _ => 0 := funext fun a => by fin_cases a <;> rfl

/-- A single store through the whole buffer (offsets at the origin, the buffer's own extents) covers it. -/
theorem whole_covers {S : Shape} {e : EltTy} {off : Fin S.rank → Nat} (h : off = fun _ => 0)
    (inb : ∀ a, off a + S.size a ≤ S.size a) (w : S.Idx → Elt F e) (y : S.Idx) :
    ∃ p ∈ ([⟨Rect.unit off S.size inb, w⟩] : List (View.Piece (Elt F) S e)), y ∈ p.1.set := by
  subst h
  exact ⟨_, List.mem_singleton_self _, by show y ∈ (Rect.whole S).set; rw [Rect.set_whole]; exact Finset.mem_univ y⟩

set_option maxHeartbeats 1000000 in
/-- The body on whole staging buffers: the operands' buffers at `x0` and `x1`, the result's at anything, run to the
    continuation with the operands' buffers as they were and the result's at the product term of `x0` and `x1`. -/
theorem tile_run (c : Dev nD) (E : Set ℕ) (i : grid0.Coords)
    (arg1 : Memref sig .tc .vmem S1024x512 .bf16) (harg1 : arg1.IsWhole)
    (arg2 : Memref sig .tc .vmem S2048x512 .bf16) (harg2 : arg2.IsWhole)
    (arg3 : Memref sig .tc .vmem S1024x2048 .bf16) (harg3 : arg3.IsWhole)
    (x0 : Vec F S1024x512 .bf16) (x1 : Vec F S2048x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (whole_covers origin _ _), View.canon_unit_zero origin,
    View.readAt_eq_ld, View.readAt_eq_ld, View.ld_unit_zero origin, View.ld_unit_zero origin]

end Cert.Kernel.Tile

end
-- ==== Proof.WordFrame.lean ====
/-
  The word-level program runs to the end, faults nowhere, and leaves its two argument arrays as launched.

  The class axis (100000) is not a multiple of the tile (2048), so the last of the 49 tiles overhangs the weight
  array by 352 rows and the result array by 352 columns. The fetch of that tile fills the staging buffer's
  overhanging rows with words nothing names, and at the word level the product of a tile is a function of the
  whole tile, those rows included: what the body leaves in the result's staging buffer cannot be named as a
  function of the point alone. The frame does not need it. The result window is therefore FORGOTTEN (handed to the body at
  any contents, taken back at any contents), the activation window is carried exactly (its one block, fetched
  once), and the weight window loosely: on the rows inside the array it holds the array's block, before the body and
  after it, and nothing is said of the rest.

  After the region one host line widens the result into `main_v3`; it writes no other buffer, so both arguments
  end at their region-entry contents, which are their launch contents (no line before the region writes them).
-/
import proofs.«104114_g50852412784741_cont_8to1_c_813_21_alg».proof.Proof.TileWord

set_option maxRecDepth 16384

noncomputable section

namespace Cert.Kernel.WordFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen Cert.Kernel.Tile
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The window whose contents are not named: the result's. -/
def forgets : Fin 3 → Bool := fun w => w.val == 2

/-- On core `c`: the arrays as the region finds them; after the body at point `t` the activations' buffer at their
    block, the weights' buffer at the tile's rows inside the array (filled out by contents nothing reads), the
    result's buffer unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => win0_1.fill (grid0.coords t) (Pipeline.Dat.unnamed (cfg := cfg0) ⟨1, h⟩ t) (iblk m c 1 t)
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (Pipeline.Dat.unnamed (cfg := cfg0) 1 t) (iblk m c 1 t) := by
  dsimp only [dats]; rfl

/-- The activations' buffer holds their one block at every point: fetched at the first, kept since. -/
theorem before_0 (c : Dev nD) (t : Fin cfg0.N) (d) : (dats m 0 c).before 0 t d = iblk m c 0 t :=
  before0_0_of m (dats m 0 c) (A_eq m c 0) (after_0 m c) t d

/-- The weights' buffer was fetched into at every point: the tile's rows inside the array, `d` past them. -/
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the weights' buffer stated on the rows inside the array, the result's not at all. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ X, owns (c : Thread nD τ) (st0_2 t) fullShare X))

/-- The body at any point: the operands' buffers hold what the fetches left, whatever the overhang holds, so the
    tile's triple applies; it gives both back untouched and the result's buffer at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl, after_0, after_1,
    win0_1.cut_fill]
  iintro ⟨HΦ, Ho, ⟨%d0, H0⟩, ⟨%d1, H1⟩, ⟨%d2, H2⟩⟩
  rw [before_0 m c t d0, before_1 m c t d1]
  iapply (tile_run c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists _; iexact H2

/-- The library's body obligation at every point, the result window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

/-- The one line after the region writes `main_v3` only. -/
theorem tail_writes : ∀ ops ∈ ([hostOps1] : List (List (HloOp τ sig (Elt F)))), ∀ op ∈ ops, ∀ b : Ref sig .tc,
    Proc.devRef .tc b ∈ op.writes → b ∈ ({main_v3} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective (τ := τ) _ hb)

set_option backward.isDefEq.respectTransparency.types false in
/-- Every weakly fair execution of @main terminates, and in every final state each unscoped buffer that is neither a
    window's array nor `main_v3` holds what it held when the region was entered. -/
theorem run_main : θ_run defs (onTc (τ := τ) (main (F := F))) (s₀ m ρ)
    (Pipeline.RDat.FramePostR (cfgs 0) (fun c => (dats m 0 c).toRForget forgets) {main_v3} (V m)) :=
  Pipeline.RDat.θ_run_frame_around_T cfgs (0 : Fin 1) launch0 defs₀ Variants.none
    (fun c => (dats m 0 c).toRForget forgets) {main_v3} m ρ main
    (hbody := fun c => (body_obligation m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans
        (V_main_arg0 m c),
      ((h c).2 main_arg1 (Finset.mem_sdiff.mpr ⟨Pipeline.mem_restRefs_of main_arg1 (by decide) (by decide), by decide⟩)).trans
        (V_main_arg1 m c)⟩)
    (run_main m ρ)

end Cert.Kernel.WordFrame

end
-- ==== Proof.TileIdeal.lean ====
/-
  One grid point of the class-tiled product, as a triple that holds at every float instance.

  The body reads its three staging buffers whole (offsets zero, the buffers' own extents) and stores one
  value, whole, into the third: the product of the first buffer (1024 × 512) with the second (2048 × 512),
  contracted over their second axes, into a zero accumulator, narrowed to the buffer's format. So if the
  first two buffers hold `x0` and `x1`, the third ends holding that one pure term of `x0` and `x1`
  whatever it held before, and the first two are untouched.
-/
import proofs.«104114_g50852412784741_cont_8to1_c_813_21_alg».proof.Proof.Gen.KernelIdeal.Frame
import proofs.«104114_g50852412784741_cont_8to1_c_813_21_alg».proof.Proof.Gen.KernelIdeal.Skeleton
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen
open Facts₀ Facts

variable {F : FTy → Type} [FloatOps F]

local notation "𝕄" => MT nD τ sig Unit (Elt F) ℕ (UR sig nD τ) ℕ

/-- The accesses' offsets are the origin. -/
theorem origin : (![0, 0] : Fin 2 → Nat) = fun _ => 0 := funext fun a => by fin_cases a <;> rfl

/-- A single store through the whole buffer (offsets at the origin, the buffer's own extents) covers it. -/
theorem whole_covers {S : Shape} {e : EltTy} {off : Fin S.rank → Nat} (h : off = fun _ => 0)
    (inb : ∀ a, off a + S.size a ≤ S.size a) (w : S.Idx → Elt F e) (y : S.Idx) :
    ∃ p ∈ ([⟨Rect.unit off S.size inb, w⟩] : List (View.Piece (Elt F) S e)), y ∈ p.1.set := by
  subst h
  exact ⟨_, List.mem_singleton_self _, by show y ∈ (Rect.whole S).set; rw [Rect.set_whole]; exact Finset.mem_univ y⟩

set_option maxHeartbeats 1000000 in
/-- The body on whole staging buffers: the operands' buffers at `x0` and `x1`, the result's at anything, run to the
    continuation with the operands' buffers as they were and the result's at the product term of `x0` and `x1`. -/
theorem tile_run (c : Dev nD) (E : Set ℕ) (i : grid0.Coords)
    (arg1 : Memref sig .tc .vmem S1024x512 .bf16) (harg1 : arg1.IsWhole)
    (arg2 : Memref sig .tc .vmem S2048x512 .bf16) (harg2 : arg2.IsWhole)
    (arg3 : Memref sig .tc .vmem S1024x2048 .bf16) (harg3 : arg3.IsWhole)
    (x0 : Vec F S1024x512 .bf16) (x1 : Vec F S2048x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (whole_covers origin _ _), View.canon_unit_zero origin,
    View.readAt_eq_ld, View.readAt_eq_ld, View.ld_unit_zero origin, View.ld_unit_zero origin]

end Cert.KernelIdeal.Tile

end
-- ==== Proof.IdealProduct.lean ====
/-
  The tile's product over the extended reals, entry by entry.

  At the ideal instance a change of float format is the identity and a product into the zero accumulator is a plain
  finite sum, so the value the body stores is, at row `p` and column `q` of the tile,
      Σ_{k < 512} x0[p, k] · x1[q, k]
  — row `p` of the activations against row `q` of the weight tile. In particular column `q` reads row `q` of the
  weight tile and no other row: two weight tiles that agree on some rows give products that agree on those columns.
-/
import proofs.«104114_g50852412784741_cont_8to1_c_813_21_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Product

open Cert.KernelIdeal Cert.KernelIdeal.Gen Idealize.ShloMosaic Idealize.ShloMosaic.ValueIdx
open Facts₀ Facts

/-- The tile product's dimension record: both operands contract their second axis; the result's rows are the left
    operand's, its columns the right operand's ROWS. -/
abbrev dims := dot_S1024x512_S2048x512_S1024x2048_1_1_0_0_n_n

theorem lhs_row (j : S1024x2048.Idx) (q : dims.contr.Idx) : (dims.lhsIdx j q 0).val = (j 0).val := by
  unfold DotDims.lhsIdx
  rw [dif_neg (show ¬(0 : Fin S1024x512.rank) ∈ dims.lhsBatch by decide),
    dif_pos (show (0 : Fin S1024x512.rank) ∈ dims.lhsNonContracting by decide)]
  rfl
theorem lhs_depth (j : S1024x2048.Idx) (q : dims.contr.Idx) : (dims.lhsIdx j q 1).val = (q ⟨0, by decide⟩).val :=
  dims.lhsIdx_val_of_single rfl j q
theorem rhs_row (j : S1024x2048.Idx) (q : dims.contr.Idx) : (dims.rhsIdx j q 0).val = (j 1).val := by
  unfold DotDims.rhsIdx
  rw [dif_neg (show ¬(0 : Fin S2048x512.rank) ∈ dims.rhsBatch by decide),
    dif_pos (show (0 : Fin S2048x512.rank) ∈ dims.rhsNonContracting by decide)]
  rfl
theorem rhs_depth (j : S1024x2048.Idx) (q : dims.contr.Idx) : (dims.rhsIdx j q 1).val = (q ⟨0, by decide⟩).val :=
  dims.rhsIdx_val_of_single rfl j q

/-- The stored value at an entry of the tile: the sum over the depth of the products of the activations' row and the
    weight tile's row. -/
theorem tile_at (x0 : Vec Ideal S1024x512 .bf16) (x1 : Vec Ideal S2048x512 .bf16) (j : S1024x2048.Idx) :
    k0_pay1 (F := Ideal) x0 x1 j = ∑ k : Fin 512, x0 (ix2 (j 0) k) * x1 (ix2 (j 1) k) := by
  unfold k0_pay1
  rw [shapeCast_self, shapeCast_self, truncf_apply]
  simp only [matmul]
  rw [Ideal.matmul_constant_zero_apply, ← Equiv.sum_comp (contrEquiv1 dims 512 rfl rfl).symm]
  refine Finset.sum_congr rfl fun k _ => ?_
  have hk := contrEquiv1_symm_val dims 512 rfl rfl k
  have el : dims.lhsIdx j ((contrEquiv1 dims 512 rfl rfl).symm k) = ix2 (j 0) k := funext fun a => Fin.ext (by
    match a with
    | ⟨0, _⟩ => exact lhs_row _ _
    | ⟨1, _⟩ => exact (lhs_depth _ _).trans hk)
  have er : dims.rhsIdx j ((contrEquiv1 dims 512 rfl rfl).symm k) = ix2 (j 1) k := funext fun a => Fin.ext (by
    match a with
    | ⟨0, _⟩ => exact rhs_row _ _
    | ⟨1, _⟩ => exact (rhs_depth _ _).trans hk)
  rw [el, er]; rfl

/-- Column `q` of the product reads row `q` of the weight tile only: weight tiles that agree on the rows below `n` give
    products that agree on the columns below `n`. -/
theorem tile_at_congr (x0 : Vec Ideal S1024x512 .bf16) (x1 x1' : Vec Ideal S2048x512 .bf16) (j : S1024x2048.Idx)
    (h : ∀ k : Fin 512, x1 (ix2 (j 1) k) = x1' (ix2 (j 1) k)) :
    k0_pay1 (F := Ideal) x0 x1 j = k0_pay1 (F := Ideal) x0 x1' j := by
  rw [tile_at, tile_at]
  exact Finset.sum_congr rfl fun k _ => by rw [h k]

end Cert.KernelIdeal.Product

end
-- ==== Proof.IdealRun.lean ====
/-
  The idealized kernel's run over the extended reals, with the result tile NAMED.

  Over the extended reals an entry of a tile's product in column `q` is a sum over row `q` of the weight tile alone
  (the product module), so on the columns inside the result array the product does not see what the last tile's
  fetch left in the weight buffer's overhanging rows. That makes the result's staging buffer nameable where it
  matters: after the body at point `t` it holds, on the columns written back, the product of the activations' block with
  the weight tile's rows inside the array filled out by zeros — whatever the overhang really held.

  The proof data: the activations' window exact (one block, fetched once); the weights' window and the result's
  loose (stated on the part their transfers move). The library's frame run around the region then has every
  pipeline array at what the write-backs of those tiles leave, and the argument arrays as launched.
-/
import proofs.«104114_g50852412784741_cont_8to1_c_813_21_alg».proof.Proof.TileIdeal
import proofs.«104114_g50852412784741_cont_8to1_c_813_21_alg».proof.Proof.IdealProduct

set_option maxRecDepth 16384

noncomputable section

namespace Cert.KernelIdeal.IdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Tile Cert.KernelIdeal.Product
open Idealize.ShloMosaic.ValueIdx
open Facts₀ Facts

local notation "𝕄" => MT nD τ sig Unit (Elt Ideal) ℕ (UR sig nD τ) ℕ

variable (m : (ℓ : Loc nD τ sig) → Buf (Elt Ideal) ℓ) (ρ : Dev nD → PrngReg)

/-! ## The tiles -/

/-- Zeros: what the named weight tile holds past the array's end. -/
def zeros : S2048x512.Idx → Elt Ideal .bf16 := fun _ => (0 : EReal)

/-- The weight tile of point `t`: the array's rows of the tile that lie inside the array, zeros past them. -/
def wtile (c : Dev nD) (t : Fin cfg0.N) : S2048x512.Idx → Elt Ideal .bf16 :=
  win0_1.fill (grid0.coords t) zeros (iblk m c 1 t)

/-- The result tile of point `t`: the activations' block times that weight tile. -/
def otile (c : Dev nD) (t : Fin cfg0.N) : S1024x2048.Idx → Elt Ideal .bf16 :=
  k0_pay1 (F := Ideal) (iblk m c 0 t) (wtile m c t)

/-- At every point the weight tile has as many rows inside its array as the result tile has columns inside its
    array, all of the depth, and the result tile all of its rows (decided over the 49 points). -/
theorem extents : ∀ t : Fin cfg0.N,
    win0_1.xsize (grid0.coords t) 0 = win0_2.xsize (grid0.coords t) 1 ∧ win0_1.xsize (grid0.coords t) 1 = 512
      ∧ win0_2.xsize (grid0.coords t) 0 = 1024 :=
  (by decide +kernel : ∀ t : Fin grid0.N,
    win0_1.xsize (grid0.coords t) 0 = win0_2.xsize (grid0.coords t) 1 ∧ win0_1.xsize (grid0.coords t) 1 = 512
      ∧ win0_2.xsize (grid0.coords t) 0 = 1024)

/-- On the columns written back, the product does not depend on what fills the weight buffer past the array's end:
    a column inside the result array reads a weight row inside the weight array. -/
theorem cut_product (t : Fin cfg0.N) (x0 : Vec Ideal S1024x512 .bf16)
    (b : (win0_1.xblock (grid0.coords t)).Idx → Elt Ideal .bf16) (d d' : S2048x512.Idx → Elt Ideal .bf16) :
    win0_2.cut (grid0.coords t) (k0_pay1 (F := Ideal) x0 (win0_1.fill (grid0.coords t) d b))
      = win0_2.cut (grid0.coords t) (k0_pay1 (F := Ideal) x0 (win0_1.fill (grid0.coords t) d' b)) := by
  funext j
  show k0_pay1 (F := Ideal) x0 _ (win0_2.xinj (grid0.coords t) j) = k0_pay1 (F := Ideal) x0 _ (win0_2.xinj (grid0.coords t) j)
  refine tile_at_congr x0 _ _ _ fun k => ?_
  have hm : win0_1.moved (grid0.coords t) (ix2 ((win0_2.xinj (grid0.coords t) j) 1) k) = true := by
    rw [win0_1.moved_iff]
    intro a
    match a with
    | ⟨0, _⟩ =>
      show (j 1).val < win0_1.xsize (grid0.coords t) 0
      rw [(extents t).1]; exact (j 1).isLt
    | ⟨1, _⟩ =>
      show k.val < win0_1.xsize (grid0.coords t) 1
      rw [(extents t).2.1]; exact k.isLt
  unfold Window.fill; rw [dif_pos hm, dif_pos hm]

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wtile m c t
    | ⟨2, _⟩ => otile m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wtile m c t := by dsimp only [dats]
theorem after_2 (c : Dev nD) (t : Fin cfg0.N) : (dats m 0 c).after 2 t = otile m c t := by dsimp only [dats]

/-- The activations' buffer holds their one block at every point: fetched at the first, kept since. -/
theorem before_0 (c : Dev nD) (t : Fin cfg0.N) (d) : (dats m 0 c).before 0 t d = iblk m c 0 t :=
  before0_0_of m (dats m 0 c) (A_eq m c 0) (after_0 m c) t d

/-- The weights' buffer was fetched into at every point: the tile's rows inside the array, `d` past them. -/
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

/-- The body at any point. The weights' buffer arrives holding the tile's rows inside the array and anything `d1` past
    them; the body leaves in the result's buffer the product with THAT, which on the columns written back is the
    named result tile's (`cut_product`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl, after_0, after_1, after_2]
  unfold otile wtile
  rw [win0_1.cut_fill]
  iintro ⟨HΦ, Ho, ⟨%d0, H0⟩, ⟨%d1, H1⟩, ⟨%d2, H2⟩⟩
  rw [before_0 m c t d0, before_1 m c t d1]
  iapply (tile_run (F := Ideal) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists k0_pay1 (F := Ideal) (iblk m c 0 t) (win0_1.fill (grid0.coords t) d1 (iblk m c 1 t))
  rw [cut_product t (iblk m c 0 t) (iblk m c 1 t) zeros d1, win0_2.fill_cut]
  iexact H2

theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates; in every final state each array of the pipeline holds what the
    write-backs of the named tiles leave, and every other unscoped buffer what the line after the region leaves. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post for the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.IdealRun

end
-- ==== Proof.Spec.lean ====
/-
  The specification both programs meet: the logits of a fully connected layer,
      logits a w [i, j] = Σ_{k < 512} a[i, k] · w[j, k],
  the activations `a` (1024 × 512) against every row of the class weights `w` (100000 × 512), over the extended reals.
  The sum is a finite sum in a commutative monoid, so neither the order of its terms nor any tiling of the class axis
  is visible in it; no law that needs finiteness is used anywhere.
-/
import Idealize.ShloMosaic.Lib.ValueIdx
import Idealize.ShloMosaic.PureOps.Ideal

noncomputable section

namespace Cert.Spec

open Idealize.ShloMosaic Idealize.ShloMosaic.ValueIdx

/-- The activations', the class weights' and the logits' shapes. -/
abbrev Acts : Shape := ⟨2, ![1024, 512]⟩
abbrev Weights : Shape := ⟨2, ![100000, 512]⟩
abbrev Logits : Shape := ⟨2, ![1024, 100000]⟩

/-- Row `i 0` of the activations against row `i 1` of the class weights. -/
def logits (a : Acts.Idx → EReal) (w : Weights.Idx → EReal) : Logits.Idx → EReal :=
  fun i => ∑ k : Fin 512, a (ix2 (i 0) k) * w (ix2 (i 1) k)

end Cert.Spec

end
-- ==== Proof.IdealLogits.lean ====
/-
  The idealized kernel's result is the specification.

  Point `t` of the 49 multiplies the activations (their one block, the whole array) by tile `t` of the class weights —
  rows 2048·t … of the weight array, as many as lie inside it: 2048, and 1696 for the last tile — and writes the
  product back onto columns 2048·t … of the result, the same count of them. So what point `t` writes back is block `t`
  of the specification's array: the entry in column `q` of the tile is Σ_k a[p, k] · w[2048·t + q, k]. Column `j` of the
  result lies in tile `j / 2048`, so the written blocks cover the result array, which therefore ends holding the
  specification of the arrays the region found — and those are the arguments, since over the extended reals the
  narrowing before the region and the widening after it are the identity.
-/
import proofs.«104114_g50852412784741_cont_8to1_c_813_21_alg».proof.Proof.IdealRun
import proofs.«104114_g50852412784741_cont_8to1_c_813_21_alg».proof.Proof.Spec
import Idealize.ShloMosaic.Lib.StableHlo.Run

set_option maxRecDepth 16384

noncomputable section

namespace Cert.KernelIdeal.Logits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Product Cert.KernelIdeal.IdealRun
open Idealize.ShloMosaic.ValueIdx Idealize.ShloMosaic.StableHlo Cert.Spec
open Facts₀ Facts

variable (m : (ℓ : Loc nD τ sig) → Buf (Elt Ideal) ℓ) (ρ : Dev nD → PrngReg)

/-! ## Where each block sits -/

/-- The printed index maps and the last tile's cut, decided over the 49 points: the activations' block is the whole
    array; the weights' tile `t` starts at block row `t`; the result's at block column `t`; a result tile has 2048 columns
    inside the array, the last one 1696. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ (t.val < 48 → win0_2.xsize (grid0.coords t) 1 = 2048) ∧ (48 ≤ t.val → win0_2.xsize (grid0.coords t) 1 = 1696) :=
  (by decide +kernel : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ (t.val < 48 → win0_2.xsize (grid0.coords t) 1 = 2048) ∧ (48 ≤ t.val → win0_2.xsize (grid0.coords t) 1 = 1696))

/-- The activations' block at any point, at row `p` and depth `k`, is the array's entry there. -/
theorem acts_at (c : Dev nD) (t : Fin cfg0.N) (p : Fin 1024) (k : Fin 512) (i : S1024x512.Idx)
    (h0 : (i 0).val = p.val) (h1 : (i 1).val = k.val) : iblk m c 0 t (ix2 p k) = V m c main_v0 i := by
  obtain ⟨e0, e1, -⟩ := idx_facts t
  show V m c main_v0 (((cfg0.win 0).blk t).view.emb (ix2 p k)) = V m c main_v0 i
  refine congrArg _ (funext fun a => Fin.ext ?_)
  match a with
  | ⟨0, _⟩ => show win0_0.index t (0 : Fin 2) * 1024 + 1 * p.val = (i 0).val; rw [e0, h0]; omega
  | ⟨1, _⟩ => show win0_0.index t (1 : Fin 2) * 512 + 1 * k.val = (i 1).val; rw [e1, h1]; omega

/-- The named weight tile of point `t`, at a row `r` inside the array and depth `k`, is the weight array's entry at row
    2048·t + r. -/
theorem weights_at (c : Dev nD) (t : Fin cfg0.N) (r : Fin 2048) (k : Fin 512)
    (hr : r.val < win0_2.xsize (grid0.coords t) 1) (i : S100000x512.Idx)
    (h0 : (i 0).val = t.val * 2048 + r.val) (h1 : (i 1).val = k.val) :
    wtile m c t (ix2 r k) = V m c main_v1 i := by
  obtain ⟨-, -, e2, e3, -⟩ := idx_facts t
  have hm : win0_1.moved (grid0.coords t) (ix2 r k) = true := by
    rw [win0_1.moved_iff]
    intro a
    match a with
    | ⟨0, _⟩ => show r.val < win0_1.xsize (grid0.coords t) 0; rw [(extents t).1]; exact hr
    | ⟨1, _⟩ => show k.val < win0_1.xsize (grid0.coords t) 1; rw [(extents t).2.1]; exact k.isLt
  unfold wtile Window.fill; rw [dif_pos hm]
  show V m c main_v1 (((cfg0.win 1).blk t).view.emb _) = V m c main_v1 i
  refine congrArg _ (funext fun a => Fin.ext ?_)
  match a with
  | ⟨0, _⟩ => show win0_1.index t (0 : Fin 2) * 2048 + 1 * r.val = (i 0).val; rw [e2, h0]; omega
  | ⟨1, _⟩ => show win0_1.index t (1 : Fin 2) * 512 + 1 * k.val = (i 1).val; rw [e3, h1]; omega

/-! ## From the blocks to the array -/

/-- What point `t` writes back is block `t` of the specification of the arrays as the region finds them. -/
theorem flushed_eq (c : Dev nD) (t : Fin cfg0.N) :
    (dats m 0 c).flushed 2 t = ((cfg0.win 2).blk t).view.read (Elt Ideal) (logits (V m c main_v0) (V m c main_v1)) := by
  show (cfg0.win 2).cut (grid0.coords t) ((dats m 0 c).after 2 t) = _
  rw [after_2]
  obtain ⟨-, -, -, -, e4, e5, -⟩ := idx_facts t
  funext j
  have r0 : ((((cfg0.win 2).blk t).view.emb j) 0).val = (j 0).val := by
    show win0_2.index t (0 : Fin 2) * 1024 + 1 * (j 0).val = _; rw [e4]; omega
  have r1 : ((((cfg0.win 2).blk t).view.emb j) 1).val = t.val * 2048 + (j 1).val := by
    show win0_2.index t (1 : Fin 2) * 2048 + 1 * (j 1).val = _; rw [e5]; omega
  show otile m c t (win0_2.xinj (grid0.coords t) j) = logits (V m c main_v0) (V m c main_v1) (((cfg0.win 2).blk t).view.emb j)
  unfold otile logits
  rw [tile_at]
  refine Finset.sum_congr rfl fun k _ => ?_
  exact congrArg₂ (· * ·)
    (acts_at m c t ((win0_2.xinj (grid0.coords t) j) 0) k (ix2 ((((cfg0.win 2).blk t).view.emb j) 0) k) r0 rfl)
    (weights_at m c t ((win0_2.xinj (grid0.coords t) j) 1) k (j 1).isLt (ix2 ((((cfg0.win 2).blk t).view.emb j) 1) k) r1 rfl)

/-- An index of the result array is in point `t`'s block iff, on each axis, it is among the block's coordinates inside
    the array. -/
theorem mem_blk (t : Fin cfg0.N) (i : S1024x100000.Idx) :
    i ∈ ((cfg0.win 2).blk t).view.set ↔ ∀ a : Fin 2, win0_2.index t a * S1024x2048.size a ≤ (i a).val
      ∧ (i a).val < win0_2.index t a * S1024x2048.size a + win0_2.xsize (grid0.coords t) a := by
  show i ∈ ((View.whole main_v2).slice (win0_2.rect t)).set ↔ _
  rw [View.set_slice_whole, Rect.mem_set_unit]
  exact Iff.rfl

/-- Column `j` lies in tile `j / 2048`: every index of the result array is in some point's block. -/
theorem covered (i : S1024x100000.Idx) :
    ∃ t : Fin cfg0.N, (cfg0.win 2).flush t = true ∧ i ∈ ((cfg0.win 2).blk t).view.set := by
  have hi0 : (i 0).val < 1024 := (i 0).isLt
  have hi1 : (i 1).val < 100000 := (i 1).isLt
  have hN : (i 1).val / 2048 < cfg0.N := by show _ < grid0.N; rw [N_0]; omega
  obtain ⟨-, -, -, -, e4, e5, s0, s1⟩ := idx_facts ⟨(i 1).val / 2048, hN⟩
  have hx := (extents ⟨(i 1).val / 2048, hN⟩).2.2
  refine ⟨⟨(i 1).val / 2048, hN⟩, flush0_2 _, ?_⟩
  rw [mem_blk]
  intro a
  match a with
  | ⟨0, _⟩ =>
    show win0_2.index ⟨(i 1).val / 2048, hN⟩ (0 : Fin 2) * 1024 ≤ (i 0).val
      ∧ (i 0).val < win0_2.index ⟨(i 1).val / 2048, hN⟩ (0 : Fin 2) * 1024 + win0_2.xsize (grid0.coords ⟨(i 1).val / 2048, hN⟩) 0
    rw [e4, hx]; omega
  | ⟨1, _⟩ =>
    show win0_2.index ⟨(i 1).val / 2048, hN⟩ (1 : Fin 2) * 2048 ≤ (i 1).val
      ∧ (i 1).val < win0_2.index ⟨(i 1).val / 2048, hN⟩ (1 : Fin 2) * 2048 + win0_2.xsize (grid0.coords ⟨(i 1).val / 2048, hN⟩) 1
    rw [e5]
    by_cases h : (i 1).val / 2048 < 48
    · rw [s0 h]; show (i 1).val / 2048 * 2048 ≤ (i 1).val ∧ (i 1).val < (i 1).val / 2048 * 2048 + 2048; omega
    · rw [s1 (Nat.le_of_not_lt h)]
      show (i 1).val / 2048 * 2048 ≤ (i 1).val ∧ (i 1).val < (i 1).val / 2048 * 2048 + 1696
      have : (i 1).val / 2048 = 48 := by omega
      omega

/-- The result array after the region: the specification of the arrays the region found. -/
theorem final (c : Dev nD) : (dats m 0 c).arrAt 2 cfg0.N = logits (V m c main_v0) (V m c main_v1) :=
  (dats m 0 c).arrAt_eq_of_cover 2 _ (fun t _ => flushed_eq m c t) covered

/-! ## The lines around the region -/

/-- The region finds the activations narrowed, which over the extended reals is the activations; -/
theorem V_v0 (c : Dev nD) : V m c main_v0 = m ((c : Thread nD τ).loc main_arg0) := by
  show StableHlo.after hostOps0 (fun b => m (c, b)) (Proc.devRef .tc main_v0) = _
  after_results
  rfl
/-- and likewise the class weights. -/
theorem V_v1 (c : Dev nD) : V m c main_v1 = m ((c : Thread nD τ).loc main_arg1) := by
  show StableHlo.after hostOps0 (fun b => m (c, b)) (Proc.devRef .tc main_v1) = _
  after_results
  rfl

/-- The line after the region widens the result array into `main_v3`: the specification of the arguments. -/
theorem result (c : Dev nD) :
    Pipeline.afterTail₀ cfgs (dats m) 0 (V0 m) [hostOps1] c main_v3
      = logits (m ((c : Thread nD τ).loc main_arg0)) (m ((c : Thread nD τ).loc main_arg1)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = logits (m ((c : Thread nD τ).loc main_arg0)) (m ((c : Thread nD τ).loc main_arg1)) :=
    (Pipeline.withArrays_arr spec0 winFacts0.arr_inj c _ _ 2).trans ((final m c).trans (by rw [V_v0, V_v1]))
  rw [e]
  rfl

/-! ## The run, read -/

/-- Every weakly fair execution of the idealized kernel terminates with its result at the specification of the
    arguments, and the arguments as launched. -/
theorem run : θ_run defs (onTc (τ := τ) (main (F := Ideal))) ⟨m, fun _ => 0, ρ⟩ fun r => ∀ c : Dev nD,
      r.2.mem ((c.tc : Thread nD τ).loc main_v3)
        = logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Logits

end
-- ==== Proof.RefValue.lean ====
/-
  The reference computes the specification: it transposes the class weights and contracts the activations' second axis
  with the transposed weights' first, so its entry at `[i, j]` is Σ_k a[i, k] · wᵀ[k, j] = Σ_k a[i, k] · w[j, k].
-/
import proofs.«104114_g50852412784741_cont_8to1_c_813_21_alg».proof.Proof.Gen.ReferenceIdeal.Read
import proofs.«104114_g50852412784741_cont_8to1_c_813_21_alg».proof.Proof.Spec

noncomputable section

namespace Cert.ReferenceIdeal.RefValue

open Cert.ReferenceIdeal Cert.ReferenceIdeal.Read Idealize.ShloMosaic Idealize.ShloMosaic.ValueIdx Cert.Spec

/-- The left operand's index of the contraction: row `i 0`, depth `k`. -/
theorem lidx_eq (i : S1024x100000.Idx) (k : Fin 512) : lidx_main_v1 i k = ix2 (i 0) k :=
  funext fun a => Fin.ext (by match a with | ⟨0, _⟩ => rfl | ⟨1, _⟩ => rfl)

/-- The right operand's, read back through the transpose: row `i 1` of the weights, depth `k`. -/
theorem ridx_eq (i : S1024x100000.Idx) (k : Fin 512) : idx_main_v0 (ridx_main_v1 i k) = ix2 (i 1) k :=
  funext fun a => Fin.ext (by match a with | ⟨0, _⟩ => rfl | ⟨1, _⟩ => rfl)

/-- The reference's result, as a function of its arguments, is the specification. -/
theorem result_eq (x0 : (⟨S1024x512, .f32⟩ : BufTy).Contents (Elt Ideal)) (x1 : (⟨S100000x512, .f32⟩ : BufTy).Contents (Elt Ideal)) :
    val_main_v1 (F := Ideal) x0 x1 = logits x0 x1 := by
  funext i
  rw [val_main_v1_apply]
  unfold logits
  refine Finset.sum_congr rfl fun k _ => ?_
  rw [val_main_v0_apply, lidx_eq, ridx_eq]; rfl

end Cert.ReferenceIdeal.RefValue

end
-- ==== Proof.lean ====
/-
  A fully connected layer's logits, tiled over the class axis, against the plain matrix product.

  The kernel narrows the activations (1024 × 512) and the class weights (100000 × 512) to a shorter float format, runs 49
  grid points — point `t` multiplies the activations by rows 2048·t … of the weights, contracting the depth 512, and
  writes the narrowed product onto columns 2048·t … of the result — and widens the result. The reference transposes the
  weights and takes one product. Over the extended reals a change of format is the identity and a product is a finite
  sum, so both compute  logits[i, j] = Σ_k a[i, k] · w[j, k]  (module Spec); the sums are over the same 512 terms in both,
  so the two sides are joined by no more than re-indexing, and the finiteness of the inputs is never used.

  The class axis is not a multiple of the tile: the last tile overhangs the weights by 352 rows and the result by 352
  columns. Its fetch leaves words nothing names in the overhanging rows of the staging buffer; its write-back drops the
  overhanging columns. Over the extended reals a column of a tile's product reads one row of the weight tile, so the columns
  written back never see those words and the result's tiles can be named (module IdealRun); the written blocks cover the
  result array (module IdealLogits). At the word level a tile's product is a function of the whole tile, so there the result's
  tiles are not named at all: the word-level program's frame is proved with the result window forgotten (module WordFrame).

  The five conjuncts: the word-level frame; the idealized kernel's frame (its run, read at the arguments); the reference's
  frame (its generated run, the result dropped); the idealization rewrote nothing; and both idealized programs end at the
  specification of arguments that agree.
-/
import proofs.«104114_g50852412784741_cont_8to1_c_813_21_alg».proof.Defs
import proofs.«104114_g50852412784741_cont_8to1_c_813_21_alg».proof.Proof.Gen.Kernel
import proofs.«104114_g50852412784741_cont_8to1_c_813_21_alg».proof.Proof.Gen.KernelIdeal
import proofs.«104114_g50852412784741_cont_8to1_c_813_21_alg».proof.Proof.Gen.ReferenceIdeal
import proofs.«104114_g50852412784741_cont_8to1_c_813_21_alg».proof.Proof.Gen.ReferenceIdeal.Run
import proofs.«104114_g50852412784741_cont_8to1_c_813_21_alg».proof.Proof.Gen.ReferenceIdeal.Read
import proofs.«104114_g50852412784741_cont_8to1_c_813_21_alg».proof.Proof.Gen.Pre_finite_inputs
import proofs.«104114_g50852412784741_cont_8to1_c_813_21_alg».proof.Proof.WordFrame
import proofs.«104114_g50852412784741_cont_8to1_c_813_21_alg».proof.Proof.IdealLogits
import proofs.«104114_g50852412784741_cont_8to1_c_813_21_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_word : Cert.frame_Kernel := fun m ρ _ => Cert.Kernel.WordFrame.frame (F := Bits) m ρ

/-- So does the idealized kernel: its run over the extended reals, read at the arguments. -/
theorem frame_ideal : Cert.frame_KernelIdeal := fun m ρ _ => Cert.KernelIdeal.IdealRun.frame m ρ

/-- So does the reference: its run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealized kernel ends at the specification of its arguments, the reference at the specification of its own, and
    the arguments agree. -/
theorem algebraic : Cert.algebraic_KernelIdeal_ReferenceIdeal := by
  intro m ρ m' ρ' _ hagree
  refine ⟨fun c => Cert.Spec.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Logits.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
